-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  main_v18

def fn {F : FTy → Type} [FloatOps F] (main_arg0 : FVec F S4096x4096 .f32) (main_arg1 : FVec F S4096x4096 .f32) (main_arg2 : FVec F S4096 .f32) (main_arg3 : FVec F S4096x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_v13 main_v16
-- ==== Kernel.lean ====
abbrev S4096x4096 : Shape := ⟨2, ![4096, 4096]⟩
abbrev S4096 : Shape := ⟨1, ![4096]⟩
abbrev S1x4096 : Shape := ⟨2, ![1, 4096]⟩
abbrev S4096x256 : Shape := ⟨2, ![4096, 256]⟩
abbrev S1024x256 : Shape := ⟨2, ![1024, 256]⟩
abbrev S1x1024 : Shape := ⟨2, ![1, 1024]⟩
abbrev S4096x1024 : Shape := ⟨2, ![4096, 1024]⟩

abbrev nBuf : Space → Nat
  | .hbm => 6
  | .vmem => 10
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S1x4096, .f32⟩
  | .hbm, ⟨5, _⟩ => ⟨S4096x4096, .f32⟩
  | .local _ .vmem, ⟨0, _⟩ => ⟨S4096x256, .f32⟩
  | .local _ .vmem, ⟨1, _⟩ => ⟨S4096x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1x1024, .f32⟩
  | .local _ .vmem, ⟨7, _⟩ => ⟨S1x1024, .f32⟩
  | .local _ .vmem, ⟨8, _⟩ => ⟨S4096x1024, .f32⟩
  | .local _ .vmem, ⟨9, _⟩ => ⟨S4096x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![1, 4, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S4096x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S4096_S1x4096 : S4096.ShapeCasts S1x4096
  inb_S4096x1024_S4096x1024_0_0 : ∀ a, (![0, 0] : Fin 2 → Nat) a + S4096x1024.size a ≤ S4096x1024.size a
  h_S4096x1024 : 0 < S4096x1024.numel
  inb_S4096x256_S4096x256_0_0 : ∀ a, (![0, 0] : Fin 2 → Nat) a + S4096x256.size a ≤ S4096x256.size a
  h_S4096x256 : 0 < S4096x256.numel
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  shapeCasts_S4096x1024_S4096x1024 : S4096x1024.ShapeCasts S4096x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S4096x1024 : S1x1024.Broadcasts S4096x1024
  dot_S4096x256_S1024x256_S4096x1024_1_1_0_0_n_n_wf : DotDims.WF S4096x256 S1024x256 S4096x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S4096x4096.size a
  hwx0_0 : ∀ i : grid0.Coords, EltTy.bits .f32 = 32 ∨ (Rect.block (s := S4096x4096) S4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S4096x4096.size a
  hwx0_1 : ∀ i : grid0.Coords, EltTy.bits .f32 = 32 ∨ (Rect.block (s := S4096x4096) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S4096x4096.size a
  hwx0_2 : ∀ i : grid0.Coords, EltTy.bits .f32 = 32 ∨ (Rect.block (s := S4096x4096) S1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x1024.size a ≤ S4096x4096.size a
  hwx0_4 : ∀ i : grid0.Coords, EltTy.bits .f32 = 32 ∨ (Rect.block (s := S4096x4096) S4096x1024.size (cc0_transform_4 i) (hinb0_4 i)).WholeWords (EltTy.packing .f32)

variable [Facts₀]

def dot_S4096x256_S1024x256_S4096x1024_1_1_0_0_n_n : DotDims S4096x256 S1024x256 S4096x1024 where
  lhsContracting := [1]
  rhsContracting := [1]
  lhsNonContracting := [0]
  rhsNonContracting := [0]
  lhsBatch := []
  rhsBatch := []
  wf := dot_S4096x256_S1024x256_S4096x1024_1_1_0_0_n_n_wf

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S4096x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S4096 : Shape := ⟨1, ![4096]⟩
abbrev S1x4096 : Shape := ⟨2, ![1, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S1x4096, .f32⟩
  | .hbm, ⟨7, _⟩ => ⟨S4096x4096, .f32⟩
  | .hbm, ⟨8, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  dot_S4096x4096_S4096x4096_S4096x4096_1_1_0_0_n_n_wf : DotDims.WF S4096x4096 S4096x4096 S4096x4096 [1] [1] [0] [0] [] []

variable [Facts₀]

def dot_S4096x4096_S4096x4096_S4096x4096_1_1_0_0_n_n : DotDims S4096x4096 S4096x4096 S4096x4096 where
  lhsContracting := [1]
  rhsContracting := [1]
  lhsNonContracting := [0]
  rhsNonContracting := [0]
  lhsBatch := []
  rhsBatch := []
  wf := dot_S4096x4096_S4096x4096_S4096x4096_1_1_0_0_n_n_wf

class Facts : Prop extends Facts₀ where

variable [Facts]
-- ==== Proof.LcSpec.lean ====
/-
  The masked linear layer as one function of its four arguments, on the extended reals.

  For an input x (batch × in), a weight w and a mask f (both out × in) and a bias b (out), the result at
  (p, o) is

      y (p, o) = Σ_{k < 4096} x (p, k) · (w (o, k) · f (o, k)) + b (o).

  Both programs compute this function; they differ only in how the sum over k is arranged.
-/
import Idealize.ShloMosaic.Lib.ValueIdx

noncomputable section

namespace Cert.LcSpec

open Idealize.ShloMosaic Idealize.ShloMosaic.ValueIdx
open scoped BigOperators

/-- One term of the contraction: the input's entry times the masked weight's. -/
def term (x w f : FVec Ideal ⟨2, ![4096, 4096]⟩ .f32) (p o k : Fin 4096) : EReal :=
  x (ix2 p k) * (w (ix2 o k) * f (ix2 o k))

/-- The result at row p (a batch entry) and column o (an output feature). -/
def maskedLinearAt (x w f : FVec Ideal ⟨2, ![4096, 4096]⟩ .f32) (b : FVec Ideal ⟨1, ![4096]⟩ .f32) (p o : Fin 4096) : EReal :=
  (∑ k : Fin 4096, term x w f p o k) + b (ix1 o)

/-- The whole result array. -/
def maskedLinear (x w f : FVec Ideal ⟨2, ![4096, 4096]⟩ .f32) (b : FVec Ideal ⟨1, ![4096]⟩ .f32) :
    FVec Ideal ⟨2, ![4096, 4096]⟩ .f32 :=
  fun i => maskedLinearAt x w f b (i 0) (i 1)

end Cert.LcSpec

end
-- ==== Proof.RefSide.lean ====
/-
  The reference computes the masked linear layer: its masked weight w · f is formed elementwise, contracted
  with x over the shared axis (a sum over k of x (p, k) times the masked weight at (o, k)), and the bias, laid out
  as one row and repeated over the rows, is added. Read at an index this is the specification term by term.
-/
import proofs.«140189_j36215164240656_2_alg».proof.Proof.Gen.ReferenceIdeal.Read
import proofs.«140189_j36215164240656_2_alg».proof.Proof.LcSpec

noncomputable section

namespace Cert.ReferenceIdeal.RefSpec

open Cert.ReferenceIdeal Cert.ReferenceIdeal.Read Idealize.ShloMosaic Idealize.ShloMosaic.ValueIdx
open scoped BigOperators

/-- The contraction reads the input at (row of the result, k). -/
theorem lidx_eq (i : S4096x4096.Idx) (k : Fin 4096) : lidx_main_v1 i k = ix2 (i 0) k :=
  funext fun a => Fin.ext (by match a with | ⟨0, _⟩ => rfl | ⟨1, _⟩ => rfl)

/-- … and the masked weight at (column of the result, k). -/
theorem ridx_eq (i : S4096x4096.Idx) (k : Fin 4096) : ridx_main_v1 i k = ix2 (i 1) k :=
  funext fun a => Fin.ext (by match a with | ⟨0, _⟩ => rfl | ⟨1, _⟩ => rfl)

/-- The bias row repeated over the rows is read at the result's column. -/
theorem bidx_eq (i : S4096x4096.Idx) : idx_main_v2 (idx_main_v3 i) = ix1 (i 1) :=
  funext fun a => Fin.ext (by match a with | ⟨0, _⟩ => rfl)

/-- The reference's result is the masked linear layer of its arguments. -/
theorem ref_eq (x0 x1 : (⟨S4096x4096, .f32⟩ : BufTy).Contents (Elt Ideal)) (x2 : (⟨S4096, .f32⟩ : BufTy).Contents (Elt Ideal))
    (x3 : (⟨S4096x4096, .f32⟩ : BufTy).Contents (Elt Ideal)) :
    val_main_v4 (F := Ideal) x0 x1 x2 x3 = Cert.LcSpec.maskedLinear x0 x1 x3 x2 := by
  funext i
  rw [val_main_v4_apply, val_main_v1_apply, val_main_v3_apply, val_main_v2_apply]
  simp only [val_main_v0_apply, lidx_eq, ridx_eq, bidx_eq, Ideal.addf_def, Ideal.mulf_def]
  rfl

end Cert.ReferenceIdeal.RefSpec

end
-- ==== Proof.LibMatmul2d.lean ====
/-
  A matrix product of the exact instance read at an index, for two-dimensional operands.

  At the exact instance a product into a zero accumulator is, at the output index (i, j), the sum over the
  contraction index of the operands' products. The contraction index is a one-axis multi-index; the operands are
  addressed through the dimension record's index maps. This file turns that into the textbook form

      (A · B) (i, j) = Σ_{k < K} A (i, k) · B (k, j)            (M×K by K×N),
      (A · Bᵀ) (i, j) = Σ_{k < K} A (i, k) · B (j, k)           (M×K by N×K),

  with the sum over `Fin K` and every index written by coordinates, for the library's two canonical dimension
  records. A printed program's own record with the same six index lists is equal to the canonical one by `rfl`
  (its well-formedness field is a proposition), so `rw [show dot_… = DotDims.plain M K N from rfl]` brings a printed
  product under these lemmas.
-/
import Idealize.ShloMosaic.Lib.ValueIdx
import Idealize.ShloMosaic.PureOps.Ideal.Laws

noncomputable section

namespace Cert.LibMatmul2d

open Idealize.ShloMosaic Idealize.ShloMosaic.ValueIdx
open scoped BigOperators

variable {M K N : ℕ}

/-! ## M×K by K×N -/

section Plain

local notation "D" => DotDims.plain M K N

theorem plain_rank : (D).contr.rank = 1 := rfl
theorem plain_size : (D).contr.size ⟨0, by rw [plain_rank]; exact Nat.one_pos⟩ = K := rfl

/-- The left operand's row is the output's row. -/
theorem plain_lhs_row (i : Fin M) (j : Fin N) (k : (D).contr.Idx) : (D).lhsIdx (ix2 i j) k (0 : Fin 2) = i := by
  unfold DotDims.lhsIdx
  simp [DotDims.plain]
  first | rfl | exact Fin.ext rfl | (apply Fin.ext; simp)

/-- The right operand's column is the output's column. -/
theorem plain_rhs_col (i : Fin M) (j : Fin N) (k : (D).contr.Idx) : (D).rhsIdx (ix2 i j) k (1 : Fin 2) = j := by
  unfold DotDims.rhsIdx
  simp [DotDims.plain]
  first | rfl | exact Fin.ext rfl | (apply Fin.ext; simp)

/-- The product of an M×K by a K×N operand into a zero accumulator, at (i, j). -/
theorem matmul_plain_apply {φ₁ φ₂ : FTy} (a : FVec Ideal ⟨2, ![M, K]⟩ φ₁) (b : FVec Ideal ⟨2, ![K, N]⟩ φ₂)
    (i : Fin M) (j : Fin N) :
    FloatOps.matmul (D) none a b (constant ⟨2, ![M, N]⟩ .f32 0x00000000#32) (ix2 i j)
      = ∑ k : Fin K, a (ix2 i k) * b (ix2 k j) := by
  rw [Ideal.matmul_constant_zero_apply, ← Equiv.sum_comp (contrEquiv1 (D) K plain_rank plain_size).symm]
  refine Finset.sum_congr rfl fun k _ => ?_
  have hl : (D).lhsIdx (ix2 i j) ((contrEquiv1 (D) K plain_rank plain_size).symm k) = ix2 i k := by
    funext ax
    match ax with
    | ⟨0, _⟩ => exact plain_lhs_row i j _
    | ⟨1, _⟩ =>
      refine Fin.ext ?_
      rw [show (⟨1, by decide⟩ : Fin 2) = (1 : Fin 2) from rfl, DotDims.lhsIdx_val_of_single (D) (cl := (1 : Fin 2)) rfl]
      exact contrEquiv1_symm_val (D) K plain_rank plain_size k
  have hr : (D).rhsIdx (ix2 i j) ((contrEquiv1 (D) K plain_rank plain_size).symm k) = ix2 k j := by
    funext ax
    match ax with
    | ⟨0, _⟩ =>
      refine Fin.ext ?_
      rw [show (⟨0, by decide⟩ : Fin 2) = (0 : Fin 2) from rfl, DotDims.rhsIdx_val_of_single (D) (cr := (0 : Fin 2)) rfl]
      exact contrEquiv1_symm_val (D) K plain_rank plain_size k
    | ⟨1, _⟩ => exact plain_rhs_col i j _
  rw [hl, hr]

end Plain

/-! ## M×K by N×K: the right operand contracted on its last axis -/

section TransposedRhs

local notation "D" => DotDims.transposedRhs M K N

theorem trhs_rank : (D).contr.rank = 1 := rfl
theorem trhs_size : (D).contr.size ⟨0, by rw [trhs_rank]; exact Nat.one_pos⟩ = K := rfl

theorem trhs_lhs_row (i : Fin M) (j : Fin N) (k : (D).contr.Idx) : (D).lhsIdx (ix2 i j) k (0 : Fin 2) = i := by
  unfold DotDims.lhsIdx
  simp [DotDims.transposedRhs]
  first | rfl | exact Fin.ext rfl | (apply Fin.ext; simp)

theorem trhs_rhs_row (i : Fin M) (j : Fin N) (k : (D).contr.Idx) : (D).rhsIdx (ix2 i j) k (0 : Fin 2) = j := by
  unfold DotDims.rhsIdx
  simp [DotDims.transposedRhs]
  first | rfl | exact Fin.ext rfl | (apply Fin.ext; simp)

/-- The product of an M×K operand with the transpose of an N×K operand into a zero accumulator, at (i, j). -/
theorem matmul_transposedRhs_apply {φ₁ φ₂ : FTy} (a : FVec Ideal ⟨2, ![M, K]⟩ φ₁) (b : FVec Ideal ⟨2, ![N, K]⟩ φ₂)
    (i : Fin M) (j : Fin N) :
    FloatOps.matmul (D) none a b (constant ⟨2, ![M, N]⟩ .f32 0x00000000#32) (ix2 i j)
      = ∑ k : Fin K, a (ix2 i k) * b (ix2 j k) := by
  rw [Ideal.matmul_constant_zero_apply, ← Equiv.sum_comp (contrEquiv1 (D) K trhs_rank trhs_size).symm]
  refine Finset.sum_congr rfl fun k _ => ?_
  have hl : (D).lhsIdx (ix2 i j) ((contrEquiv1 (D) K trhs_rank trhs_size).symm k) = ix2 i k := by
    funext ax
    match ax with
    | ⟨0, _⟩ => exact trhs_lhs_row i j _
    | ⟨1, _⟩ =>
      refine Fin.ext ?_
      rw [show (⟨1, by decide⟩ : Fin 2) = (1 : Fin 2) from rfl, DotDims.lhsIdx_val_of_single (D) (cl := (1 : Fin 2)) rfl]
      exact contrEquiv1_symm_val (D) K trhs_rank trhs_size k
  have hr : (D).rhsIdx (ix2 i j) ((contrEquiv1 (D) K trhs_rank trhs_size).symm k) = ix2 j k := by
    funext ax
    match ax with
    | ⟨0, _⟩ => exact trhs_rhs_row i j _
    | ⟨1, _⟩ =>
      refine Fin.ext ?_
      rw [show (⟨1, by decide⟩ : Fin 2) = (1 : Fin 2) from rfl, DotDims.rhsIdx_val_of_single (D) (cr := (1 : Fin 2)) rfl]
      exact contrEquiv1_symm_val (D) K trhs_rank trhs_size k
  rw [hl, hr]

end TransposedRhs

/-! ## K×M by K×N: both operands contracted on their first axis -/

/-- `<[0], [0], [1], [1], [0, 1, 1, 1], [], []>`: the transpose of a K×M operand by a K×N operand. -/
def transposedLhs (K M N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

section TransposedLhs

local notation "D" => transposedLhs K M N

theorem tlhs_rank : (D).contr.rank = 1 := rfl
theorem tlhs_size : (D).contr.size ⟨0, by rw [tlhs_rank]; exact Nat.one_pos⟩ = K := rfl

theorem tlhs_lhs_col (i : Fin M) (j : Fin N) (k : (D).contr.Idx) : (D).lhsIdx (ix2 i j) k (1 : Fin 2) = i := by
  unfold DotDims.lhsIdx
  simp [transposedLhs]
  first | rfl | exact Fin.ext rfl | (apply Fin.ext; simp)

theorem tlhs_rhs_col (i : Fin M) (j : Fin N) (k : (D).contr.Idx) : (D).rhsIdx (ix2 i j) k (1 : Fin 2) = j := by
  unfold DotDims.rhsIdx
  simp [transposedLhs]
  first | rfl | exact Fin.ext rfl | (apply Fin.ext; simp)

/-- The product of the transpose of a K×M operand with a K×N operand into a zero accumulator, at (i, j). -/
theorem matmul_transposedLhs_apply {φ₁ φ₂ : FTy} (a : FVec Ideal ⟨2, ![K, M]⟩ φ₁) (b : FVec Ideal ⟨2, ![K, N]⟩ φ₂)
    (i : Fin M) (j : Fin N) :
    FloatOps.matmul (D) none a b (constant ⟨2, ![M, N]⟩ .f32 0x00000000#32) (ix2 i j)
      = ∑ k : Fin K, a (ix2 k i) * b (ix2 k j) := by
  rw [Ideal.matmul_constant_zero_apply, ← Equiv.sum_comp (contrEquiv1 (D) K tlhs_rank tlhs_size).symm]
  refine Finset.sum_congr rfl fun k _ => ?_
  have hl : (D).lhsIdx (ix2 i j) ((contrEquiv1 (D) K tlhs_rank tlhs_size).symm k) = ix2 k i := by
    funext ax
    match ax with
    | ⟨0, _⟩ =>
      refine Fin.ext ?_
      rw [show (⟨0, by decide⟩ : Fin 2) = (0 : Fin 2) from rfl, DotDims.lhsIdx_val_of_single (D) (cl := (0 : Fin 2)) rfl]
      exact contrEquiv1_symm_val (D) K tlhs_rank tlhs_size k
    | ⟨1, _⟩ => exact tlhs_lhs_col i j _
  have hr : (D).rhsIdx (ix2 i j) ((contrEquiv1 (D) K tlhs_rank tlhs_size).symm k) = ix2 k j := by
    funext ax
    match ax with
    | ⟨0, _⟩ =>
      refine Fin.ext ?_
      rw [show (⟨0, by decide⟩ : Fin 2) = (0 : Fin 2) from rfl, DotDims.rhsIdx_val_of_single (D) (cr := (0 : Fin 2)) rfl]
      exact contrEquiv1_symm_val (D) K tlhs_rank tlhs_size k
    | ⟨1, _⟩ => exact tlhs_rhs_col i j _
  rw [hl, hr]

end TransposedLhs

end Cert.LibMatmul2d

end
-- ==== Proof.KernelPay.lean ====
/-
  The kernel body's arithmetic, read at one entry of the output block.

  At one grid point the body holds a block of x (4096 × 256), the matching blocks of the weight and of the mask
  (1024 × 256 each) and the output block accumulated so far (4096 × 1024). It adds to the accumulated entry (p, q)
  the partial contraction over the block's 256 columns,

      acc (p, q) + Σ_{r < 256} x (p, r) · (w (q, r) · f (q, r)),

  the changes of float format being the identity on the extended reals. The first point of a run starts from the
  zero block; the last one adds the bias row, entry q, to every row.
-/
import proofs.«140189_j36215164240656_2_alg».proof.Proof.Gen.KernelIdeal.Skeleton
import proofs.«140189_j36215164240656_2_alg».proof.Proof.LibMatmul2d
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx
open scoped BigOperators

/-- The block a run starts from is zero everywhere. -/
theorem pay1_apply (j : S4096x1024.Idx) : k0_pay1 (F := Ideal) j = 0 := by
  unfold k0_pay1
  exact Ideal.ofBits_zero_f32

/-- One point's step: the accumulated entry plus the partial contraction over the point's 256 columns. -/
theorem pay2_apply (x0 : Vec Ideal S4096x256 .f32) (x1 x2 : Vec Ideal S1024x256 .f32) (acc : Vec Ideal S4096x1024 .f32)
    (p : Fin 4096) (q : Fin 1024) :
    k0_pay2 x0 x1 x2 acc (ix2 p q)
      = acc (ix2 p q) + ∑ r : Fin 256, x0 (ix2 p r) * (x1 (ix2 q r) * x2 (ix2 q r)) := by
  unfold k0_pay2
  rw [addf_apply, shapeCast_self]
  refine congrArg (acc (ix2 p q) + ·) ?_
  exact Cert.LibMatmul2d.matmul_transposedRhs_apply (M := 4096) (K := 256) (N := 1024) _ _ p q

/-- The last point's extra step: the bias row's entry q added to the accumulated entry. -/
theorem pay3_apply (acc : Vec Ideal S4096x1024 .f32) (x3 : Vec Ideal S1x1024 .f32) (p : Fin 4096) (q : Fin 1024) :
    k0_pay3 acc x3 (ix2 p q) = acc (ix2 p q) + x3 (ix2 (0 : Fin 1) q) := by
  unfold k0_pay3
  rw [addf_apply, shapeCast_self, shapeCast_self]
  exact congrArg (acc (ix2 p q) + ·) (broadcastTo_1b_ab_apply x3 _ p q)

end Cert.KernelIdeal.Pay

end
-- ==== Proof.KernelBlocks.lean ====
/-
  What the kernel's input blocks hold, in terms of the argument arrays.

  The grid has 1 × 4 × 16 = 64 points, visited in row-major order; point n works on output column block n / 16
  (1024 columns) and on contraction block n % 16 (256 columns of x, of the weight and of the mask). So at point n

      x's block      (p, r)  is  x (p, (n % 16) · 256 + r),
      the weight's   (q, r)  is  w ((n / 16) · 1024 + q, (n % 16) · 256 + r),      the mask's likewise,
      the bias row's (0, q)  is  b ((n / 16) · 1024 + q)      (the bias is laid out as one row before the call),

  and the partial contraction the point adds to entry (p, q) of its output block is the sum over r < 256 of the
  specification's terms at row p, column (n / 16) · 1024 + q, contraction index (n % 16) · 256 + r.
-/
import proofs.«140189_j36215164240656_2_alg».proof.Proof.Gen.KernelIdeal.Frame
import proofs.«140189_j36215164240656_2_alg».proof.Proof.LcSpec
import Idealize.ShloMosaic.Lib.ValueLayout
import Idealize.ShloMosaic.Lib.Pipeline.Value
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx Cert.LcSpec
open scoped BigOperators

/-- The contraction index of entry r of the contraction block that point n works on. -/
def kcol (n : ℕ) (r : Fin 256) : Fin 4096 := ⟨(n % 16) * 256 + r.val, by have := r.isLt; omega⟩

/-- The output column (a row of the weight) of entry q of the column block that point n works on. -/
def orow (n : ℕ) (q : Fin 1024) : Fin 4096 := ⟨(n / 16 % 4) * 1024 + q.val, by have := q.isLt; omega⟩

variable (m : (ℓ : Loc nD τ sig) → Buf (Elt Ideal) ℓ)

/-- The four arguments as the launch finds them. -/
abbrev argX (c : Dev nD) : FVec Ideal ⟨2, ![4096, 4096]⟩ .f32 := m ((c : Thread nD τ).loc main_arg0)
abbrev argW (c : Dev nD) : FVec Ideal ⟨2, ![4096, 4096]⟩ .f32 := m ((c : Thread nD τ).loc main_arg1)
abbrev argB (c : Dev nD) : FVec Ideal ⟨1, ![4096]⟩ .f32 := m ((c : Thread nD τ).loc main_arg2)
abbrev argF (c : Dev nD) : FVec Ideal ⟨2, ![4096, 4096]⟩ .f32 := m ((c : Thread nD τ).loc main_arg3)

/-- The partial contraction point n adds to entry (p, q) of its output block. -/
def partialSum (c : Dev nD) (n : ℕ) (p : Fin 4096) (q : Fin 1024) : EReal :=
  ∑ r : Fin 256, term (argX m c) (argW m c) (argF m c) p (orow n q) (kcol n r)

/-- The printed index maps over the grid, decided once: x's block index is (0, n % 16), the weight's and the mask's
    (n / 16, n % 16), the bias row's (0, n / 16). -/
theorem idx_facts : ∀ t : Fin cfg0.N,
    win0_0.index t (0 : Fin 2) = 0 ∧ win0_0.index t (1 : Fin 2) = t.val % 16
    ∧ win0_1.index t (0 : Fin 2) = t.val / 16 ∧ win0_1.index t (1 : Fin 2) = t.val % 16
    ∧ win0_2.index t (0 : Fin 2) = t.val / 16 ∧ win0_2.index t (1 : Fin 2) = t.val % 16
    ∧ win0_3.index t (0 : Fin 2) = 0 ∧ win0_3.index t (1 : Fin 2) = t.val / 16 :=
  (by decide +kernel : ∀ t : Fin grid0.N, _)

theorem lt64 (t : Fin cfg0.N) : t.val < 64 := lt_of_lt_of_eq t.isLt (show cfg0.N = 64 from N_0)

/-- x's block at point t. -/
theorem iblk0_apply (c : Dev nD) (t : Fin cfg0.N) (p : Fin 4096) (r : Fin 256) :
    (iblk m c 0 t : Vec Ideal S4096x256 .f32) (ix2 p r) = argX m c (ix2 p (kcol t.val r)) := by
  refine Eq.trans ?_ (congrFun (V_main_arg0 m c) (ix2 p (kcol t.val r)))
  show V m c main_arg0 (((cfg0.win 0).blk t).view.emb (ix2 p r)) = V m c main_arg0 (ix2 p (kcol t.val r))
  refine congrArg _ (funext fun a => Fin.ext ?_)
  obtain ⟨e0, e1, -⟩ := idx_facts t
  match a with
  | ⟨0, _⟩ => show win0_0.index t (0 : Fin 2) * 4096 + 1 * p.val = p.val; rw [e0]; omega
  | ⟨1, _⟩ => show win0_0.index t (1 : Fin 2) * 256 + 1 * r.val = (t.val % 16) * 256 + r.val; rw [e1]; omega

/-- The weight's block at point t. -/
theorem iblk1_apply (c : Dev nD) (t : Fin cfg0.N) (q : Fin 1024) (r : Fin 256) :
    (iblk m c 1 t : Vec Ideal S1024x256 .f32) (ix2 q r) = argW m c (ix2 (orow t.val q) (kcol t.val r)) := by
  refine Eq.trans ?_ (congrFun (V_main_arg1 m c) (ix2 (orow t.val q) (kcol t.val r)))
  show V m c main_arg1 (((cfg0.win 1).blk t).view.emb (ix2 q r)) = V m c main_arg1 (ix2 (orow t.val q) (kcol t.val r))
  refine congrArg _ (funext fun a => Fin.ext ?_)
  obtain ⟨-, -, e0, e1, -⟩ := idx_facts t
  have ht := lt64 t
  match a with
  | ⟨0, _⟩ => show win0_1.index t (0 : Fin 2) * 1024 + 1 * q.val = (t.val / 16 % 4) * 1024 + q.val; rw [e0]; omega
  | ⟨1, _⟩ => show win0_1.index t (1 : Fin 2) * 256 + 1 * r.val = (t.val % 16) * 256 + r.val; rw [e1]; omega

/-- The mask's block at point t (the call's third operand is the fourth argument). -/
theorem iblk2_apply (c : Dev nD) (t : Fin cfg0.N) (q : Fin 1024) (r : Fin 256) :
    (iblk m c 2 t : Vec Ideal S1024x256 .f32) (ix2 q r) = argF m c (ix2 (orow t.val q) (kcol t.val r)) := by
  refine Eq.trans ?_ (congrFun (V_main_arg3 m c) (ix2 (orow t.val q) (kcol t.val r)))
  show V m c main_arg3 (((cfg0.win 2).blk t).view.emb (ix2 q r)) = V m c main_arg3 (ix2 (orow t.val q) (kcol t.val r))
  refine congrArg _ (funext fun a => Fin.ext ?_)
  obtain ⟨-, -, -, -, e0, e1, -⟩ := idx_facts t
  have ht := lt64 t
  match a with
  | ⟨0, _⟩ => show win0_2.index t (0 : Fin 2) * 1024 + 1 * q.val = (t.val / 16 % 4) * 1024 + q.val; rw [e0]; omega
  | ⟨1, _⟩ => show win0_2.index t (1 : Fin 2) * 256 + 1 * r.val = (t.val % 16) * 256 + r.val; rw [e1]; omega

/-- The one-row array the call's fourth operand stages: the bias laid out as a row before the call. -/
theorem V_bias (c : Dev nD) :
    (V m c main_v0 : S1x4096.Idx → EReal) = shapeCast S1x4096 (argB m c) Facts₀.shapeCasts_S4096_S1x4096 := by
  dsimp only [V, hostOps0]
  after_results
  rfl

/-- The bias row's block at point t. -/
theorem iblk3_apply (c : Dev nD) (t : Fin cfg0.N) (q : Fin 1024) :
    (iblk m c 3 t : Vec Ideal S1x1024 .f32) (ix2 (0 : Fin 1) q) = argB m c (ix1 (orow t.val q)) := by
  have e : ((cfg0.win 3).blk t).view.emb (ix2 (0 : Fin 1) q) = ix2 (0 : Fin 1) (orow t.val q) := by
    refine funext fun a => Fin.ext ?_
    obtain ⟨-, -, -, -, -, -, e0, e1⟩ := idx_facts t
    have ht := lt64 t
    match a with
    | ⟨0, _⟩ => show win0_3.index t (0 : Fin 2) * 1 + 1 * 0 = 0; rw [e0]
    | ⟨1, _⟩ => show win0_3.index t (1 : Fin 2) * 1024 + 1 * q.val = (t.val / 16 % 4) * 1024 + q.val; rw [e1]; omega
  show V m c main_v0 (((cfg0.win 3).blk t).view.emb (ix2 (0 : Fin 1) q)) = _
  refine Eq.trans (congrFun (V_bias m c) _) ?_
  refine Eq.trans (congrArg _ e) ?_
  exact shapeCast_a_1a_apply (argB m c) _ 0 (orow t.val q)

/-- The four input blocks at point t, at their literal shapes. -/
abbrev blkX (c : Dev nD) (t : Fin cfg0.N) : Vec Ideal S4096x256 .f32 := iblk m c 0 t
abbrev blkW (c : Dev nD) (t : Fin cfg0.N) : Vec Ideal S1024x256 .f32 := iblk m c 1 t
abbrev blkF (c : Dev nD) (t : Fin cfg0.N) : Vec Ideal S1024x256 .f32 := iblk m c 2 t
abbrev blkB (c : Dev nD) (t : Fin cfg0.N) : Vec Ideal S1x1024 .f32 := iblk m c 3 t

/-- The partial contraction over the blocks at point t is the partial sum of the specification's terms. -/
theorem block_sum (c : Dev nD) (t : Fin cfg0.N) (p : Fin 4096) (q : Fin 1024) :
    (∑ r : Fin 256, blkX m c t (ix2 p r) * (blkW m c t (ix2 q r) * blkF m c t (ix2 q r)))
      = partialSum m c t.val p q :=
  Finset.sum_congr rfl fun r _ =>
    congrArg₂ (· * ·) (iblk0_apply m c t p r) (congrArg₂ (· * ·) (iblk1_apply m c t q r) (iblk2_apply m c t q r))

end Cert.KernelIdeal.Blocks

end
-- ==== Proof.LibBlockSum.lean ====
/-
  A finite sum over n·B consecutive indices, taken block by block.

  A contraction over a long axis is often computed in pieces: the axis is cut into n blocks of B entries, each block
  is summed by itself, and the partial sums are added up one after another. In a commutative monoid the order and
  the grouping of a finite sum do not matter, so the partial sums add up to the whole sum. Nothing is asked of the
  entries (no finiteness, no ring laws): the statement holds in any additive commutative monoid, the extended reals
  included.
-/
import Mathlib.Algebra.BigOperators.Fin
import Mathlib.Algebra.BigOperators.Ring.Finset
import Mathlib.Logic.Equiv.Fin.Basic

namespace Cert.LibBlockSum

open scoped BigOperators

variable {β : Type*} [AddCommMonoid β]

/-- The position, among n·B consecutive indices, of entry `r` of block `s`: `s·B + r`. -/
def blockIdx {n B : ℕ} (s : Fin n) (r : Fin B) : Fin (n * B) := finProdFinEquiv (s, r)

theorem blockIdx_val {n B : ℕ} (s : Fin n) (r : Fin B) : (blockIdx s r).val = r.val + B * s.val := rfl

/-- A sum over n·B indices is the sum, over the n blocks, of each block's B entries. -/
theorem sum_eq_sum_blocks (n B : ℕ) (g : Fin (n * B) → β) :
    ∑ k : Fin (n * B), g k = ∑ s : Fin n, ∑ r : Fin B, g (blockIdx s r) := by
  rw [← Equiv.sum_comp finProdFinEquiv g, Fintype.sum_prod_type]
  rfl

/-- The same with the blocks counted by the naturals below n (the form a fold over consecutive steps leaves):
    if `f s` is block `s`'s partial sum for every `s < n`, the partial sums add up to the whole sum. -/
theorem sum_range_blocks (n B : ℕ) (g : Fin (n * B) → β) (f : ℕ → β)
    (hf : ∀ s : Fin n, f s.val = ∑ r : Fin B, g (blockIdx s r)) :
    ∑ s ∈ Finset.range n, f s = ∑ k : Fin (n * B), g k := by
  rw [Finset.sum_range, sum_eq_sum_blocks]
  exact Finset.sum_congr rfl fun s _ => hf s

end Cert.LibBlockSum
-- ==== Proof.KernelFold.lean ====
/-
  The kernel's result array is the masked linear layer.

  The output block of column block c (1024 columns) is accumulated over a run of 16 consecutive grid points,
  16·c … 16·c + 15: the first starts from zero and adds its partial contraction, each later one adds its own to what
  the point before left, and the last one also adds the bias. So the entry (p, q) of the block, after the run, is

      0 + Σ_{s < 16} (Σ_{r < 256} term (p, 1024·c + q, 256·s + r)) + b (1024·c + q).

  The sixteen partial sums are the sum over all 4096 contraction indices taken block by block; addition on the
  extended reals is commutative and associative, so regrouping it needs nothing of the entries. The array's entry
  (p, o) lies in the block of column block o / 1024, at (p, o % 1024).
-/
import proofs.«140189_j36215164240656_2_alg».proof.Proof.Gen.KernelIdeal.Value
import proofs.«140189_j36215164240656_2_alg».proof.Proof.KernelPay
import proofs.«140189_j36215164240656_2_alg».proof.Proof.KernelBlocks
import proofs.«140189_j36215164240656_2_alg».proof.Proof.LibBlockSum

noncomputable section

namespace Cert.KernelIdeal.Fold

open Cert.KernelIdeal Cert.KernelIdeal.Gen Cert.KernelIdeal.Value Cert.KernelIdeal.Blocks Cert.KernelIdeal.Pay
open Idealize.ShloMosaic Idealize.ShloMosaic.TcCoe Idealize.SL.Sem Idealize.ShloMosaic.ValueIdx
open Cert.LcSpec Cert.LibBlockSum
open scoped BigOperators

variable (m : (ℓ : Loc nD τ sig) → Buf (Elt Ideal) ℓ)

/-- The first point of a run leaves zero plus its partial contraction. -/
theorem reset4_apply (c : Dev nD) (n : ℕ) (h : n < cfg0.N) (p : Fin 4096) (q : Fin 1024) :
    reset4 m c n h (ix2 p q) = 0 + partialSum m c n p q := by
  unfold reset4
  refine (pay2_apply (blkX m c ⟨n, h⟩) (blkW m c ⟨n, h⟩) (blkF m c ⟨n, h⟩) (k0_pay1 (F := Ideal)) p q).trans ?_
  exact congrArg₂ (· + ·) (pay1_apply (ix2 p q)) (block_sum m c ⟨n, h⟩ p q)

/-- A point inside a run adds its partial contraction to what the point before left. -/
theorem step4_mid (c : Dev nD) (n : ℕ) (h : n < cfg0.N) (h0 : ¬n % 16 = 0) (h15 : ¬n % 16 = 15)
    (acc : Vec Ideal S4096x1024 .f32) (p : Fin 4096) (q : Fin 1024) :
    step4 m c n h acc (ix2 p q) = acc (ix2 p q) + partialSum m c n p q := by
  unfold step4
  rw [if_pos ⟨h0, h15⟩]
  exact (pay2_apply (blkX m c ⟨n, h⟩) (blkW m c ⟨n, h⟩) (blkF m c ⟨n, h⟩) acc p q).trans
    (congrArg (acc (ix2 p q) + ·) (block_sum m c ⟨n, h⟩ p q))

/-- The last point of a run adds its partial contraction and then the bias. -/
theorem step4_last (c : Dev nD) (n : ℕ) (h : n < cfg0.N) (h0 : ¬n % 16 = 0) (h15 : n % 16 = 15)
    (acc : Vec Ideal S4096x1024 .f32) (p : Fin 4096) (q : Fin 1024) :
    step4 m c n h acc (ix2 p q) = acc (ix2 p q) + partialSum m c n p q + argB m c (ix1 (orow n q)) := by
  unfold step4
  rw [if_neg (fun hh => hh.2 h15), if_pos ⟨h0, h15⟩]
  refine (pay3_apply (k0_pay2 (blkX m c ⟨n, h⟩) (blkW m c ⟨n, h⟩) (blkF m c ⟨n, h⟩) acc) (blkB m c ⟨n, h⟩) p q).trans ?_
  exact congrArg₂ (· + ·)
    ((pay2_apply (blkX m c ⟨n, h⟩) (blkW m c ⟨n, h⟩) (blkF m c ⟨n, h⟩) acc p q).trans
      (congrArg (acc (ix2 p q) + ·) (block_sum m c ⟨n, h⟩ p q)))
    (iblk3_apply m c ⟨n, h⟩ q)

/-- The run of column block cb, read at entry (p, q) of its output block: the whole contraction plus the bias. -/
theorem fold_apply (c : Dev nD) (cb : ℕ) (hcb : cb < 4) (h : 16 * cb + 15 < cfg0.N) (p : Fin 4096) (q : Fin 1024) :
    Pipeline.accAt (reset4 m c) (step4 m c) (16 * cb) 15 h (ix2 p q)
      = maskedLinearAt (argX m c) (argW m c) (argF m c) (argB m c) p
          ⟨cb * 1024 + q.val, by have := q.isLt; omega⟩ := by
  have h14 : 16 * cb + 14 < cfg0.N := by omega
  have hmid : Pipeline.accAt (reset4 m c) (step4 m c) (16 * cb) 14 h14 (ix2 p q)
      = 0 + ∑ s ∈ Finset.range (14 + 1), partialSum m c (16 * cb + s) p q :=
    Pipeline.accAt_add_apply (reset4 m c) (step4 m c) (fun _ => (0 : EReal))
      (fun n (j : S4096x1024.Idx) => partialSum m c n (j 0) (j 1)) (16 * cb) 14
      (fun hb i => by
        obtain ⟨p', q', rfl⟩ : ∃ (p' : Fin 4096) (q' : Fin 1024), i = ix2 p' q' := ⟨i 0, i 1, eq_ix2 i⟩
        exact reset4_apply m c _ hb p' q')
      (fun n hn acc i hlo hhi => by
        obtain ⟨p', q', rfl⟩ : ∃ (p' : Fin 4096) (q' : Fin 1024), i = ix2 p' q' := ⟨i 0, i 1, eq_ix2 i⟩
        exact step4_mid m c n hn (by omega) (by omega) acc p' q')
      14 le_rfl h14 (ix2 p q)
  calc Pipeline.accAt (reset4 m c) (step4 m c) (16 * cb) 15 h (ix2 p q)
      = Pipeline.accAt (reset4 m c) (step4 m c) (16 * cb) 14 h14 (ix2 p q)
          + partialSum m c (16 * cb + 15) p q + argB m c (ix1 (orow (16 * cb + 15) q)) :=
        step4_last m c (16 * cb + 15) h (by omega) (by omega) _ p q
    _ = (∑ s ∈ Finset.range 16, partialSum m c (16 * cb + s) p q) + argB m c (ix1 (orow (16 * cb + 15) q)) := by
        rw [hmid, zero_add, Finset.sum_range_succ (fun s => partialSum m c (16 * cb + s) p q) 15]
    _ = _ := by
        unfold maskedLinearAt
        refine congrArg₂ (· + ·) ?_ (congrArg _ (congrArg ix1 (Fin.ext ?_)))
        · refine sum_range_blocks 16 256
            (fun k => term (argX m c) (argW m c) (argF m c) p ⟨cb * 1024 + q.val, by have := q.isLt; omega⟩ k)
            (fun s => partialSum m c (16 * cb + s) p q) (fun s => ?_)
          have hs := s.isLt
          unfold partialSum
          refine Finset.sum_congr rfl fun r _ => ?_
          have e1 : orow (16 * cb + s.val) q = ⟨cb * 1024 + q.val, by have := q.isLt; omega⟩ :=
            Fin.ext (by show (16 * cb + s.val) / 16 % 4 * 1024 + q.val = cb * 1024 + q.val; omega)
          have e2 : kcol (16 * cb + s.val) r = blockIdx s r :=
            Fin.ext (by rw [blockIdx_val]; show (16 * cb + s.val) % 16 * 256 + r.val = r.val + 256 * s.val; omega)
          rw [e1, e2]
        · show (16 * cb + 15) / 16 % 4 * 1024 + q.val = cb * 1024 + q.val
          omega

/-- The array's entry (p, o) after the run. -/
theorem G4_apply (c : Dev nD) (p o : Fin 4096) :
    G4 (F := Ideal) m c (ix2 p o) = maskedLinearAt (argX m c) (argW m c) (argF m c) (argB m c) p o := by
  have ho := o.isLt
  have hp := p.isLt
  have hN : cfg0.N = 64 := N_0
  have hrun : run4Of (ix2 p o) = o.val / 1024 := by
    show 4 * (p.val / 4096 - 0) + 1 * (o.val / 1024 - 0) = _
    omega
  have hloc : loc4Of (ix2 p o) = ix2 p (⟨o.val % 1024, Nat.mod_lt _ (by decide)⟩ : Fin 1024) := by
    funext a
    match a with
    | ⟨0, _⟩ => exact Fin.ext (by show p.val % 4096 = p.val; omega)
    | ⟨1, _⟩ => rfl
  have key : ∀ (b : ℕ) (hb : 16 * b + 15 < cfg0.N) (j : S4096x1024.Idx), b = o.val / 1024 →
      j = ix2 p (⟨o.val % 1024, Nat.mod_lt _ (by decide)⟩ : Fin 1024) →
      Pipeline.accAt (reset4 m c) (step4 m c) (16 * b) 15 hb j
        = maskedLinearAt (argX m c) (argW m c) (argF m c) (argB m c) p o := by
    intro b hb j eb ej
    subst eb ej
    refine (fold_apply m c (o.val / 1024) (by omega) hb p ⟨o.val % 1024, Nat.mod_lt _ (by decide)⟩).trans ?_
    exact congrArg (maskedLinearAt (argX m c) (argW m c) (argF m c) (argB m c) p)
      (Fin.ext (by show o.val / 1024 * 1024 + o.val % 1024 = o.val; omega))
  have hlt : 16 * run4Of (ix2 p o) + 15 < cfg0.N := by rw [hrun, hN]; omega
  unfold G4
  rw [dif_pos hlt]
  exact key _ _ _ hrun hloc

/-- The kernel's result array is the masked linear layer of the four arguments. -/
theorem G4_eq (c : Dev nD) :
    G4 (F := Ideal) m c = maskedLinear (argX m c) (argW m c) (argF m c) (argB m c) := by
  funext i
  obtain ⟨p, o, rfl⟩ : ∃ (p o : Fin 4096), i = ix2 p o := ⟨i 0, i 1, eq_ix2 i⟩
  exact G4_apply m c p o

end Cert.KernelIdeal.Fold

end
-- ==== Proof.lean ====
/-
  A masked linear layer, y = x · (w ∘ f)ᵀ + b on 4096 × 4096 operands, computed by a tiled kernel and by a plain
  contraction: the two results are equal on the extended reals.

  The reference forms the masked weight w ∘ f, contracts it with x over the shared axis of 4096 entries and adds the
  bias to every row. The kernel walks a 1 × 4 × 16 grid: for each of the four blocks of 1024 output columns it
  zeroes the output block, adds in turn the sixteen partial contractions over 256 contraction indices each, and adds
  the bias at the last step. On the extended reals a change of float format is the identity, so each partial
  contraction is the plain sum of its 256 terms, and the sixteen partial sums regroup the sum of all 4096 terms;
  addition there is commutative and associative whatever the entries, so the argument never uses that the inputs
  are finite. Entry (p, o) of both results is

      Σ_{k < 4096} x (p, k) · (w (o, k) · f (o, k)) + b (o).

  Nothing was rewritten when the kernel was idealized, so its idealization has nothing to preserve.
-/
import proofs.«140189_j36215164240656_2_alg».proof.Defs
import proofs.«140189_j36215164240656_2_alg».proof.Proof.Gen.Kernel.Frame
import proofs.«140189_j36215164240656_2_alg».proof.Proof.Gen.KernelIdeal.Value
import proofs.«140189_j36215164240656_2_alg».proof.Proof.Gen.Pre_finite_inputs
import proofs.«140189_j36215164240656_2_alg».proof.Proof.Gen.ReferenceIdeal.Run
import proofs.«140189_j36215164240656_2_alg».proof.Proof.RefSide
import proofs.«140189_j36215164240656_2_alg».proof.Proof.KernelFold
import Idealize.ShloMosaic.Adequacy
import Idealize.ShloMosaic.Init

noncomputable section

namespace Cert.Proof

open Idealize.ShloMosaic Idealize.SL.Sem

/-- The idealized kernel terminates without a fault and leaves its arguments as they were: its run, with the
    result's value forgotten. -/
theorem frame_KernelIdeal : frame_KernelIdeal := fun m ρ _ =>
  (θ_run Cert.KernelIdeal.defs _ _).mono (fun _ h c => (h c).2) (Cert.KernelIdeal.Value.run (F := Ideal) m ρ)

/-- The same for the reference. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories that agree on the four arguments both runs end with the masked linear layer of those arguments
    in their result arrays: the kernel's as the fold of its sixteen partial contractions per column block, the
    reference's as one contraction. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  exact (Cert.ReferenceIdeal.RefSpec.ref_eq _ _ _ _).trans (Cert.KernelIdeal.Fold.G4_eq m c).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
